-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x40 .f32) (main_arg5 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x40 .f32 := Host.absf main_arg4
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x40 : Shape := ⟨2, ![100000, 40]⟩
abbrev S5000x40 : Shape := ⟨2, ![5000, 40]⟩
abbrev S1700000x40 : Shape := ⟨2, ![1700000, 40]⟩
abbrev S1x40 : Shape := ⟨2, ![1, 40]⟩

abbrev nBuf : Space → Nat
  | .hbm => 82
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S_, .i32⟩
  | .hbm, ⟨21, _⟩ => ⟨S1700000, .i32⟩
  | .hbm, ⟨22, _⟩ => ⟨S1700000, .i1⟩
  | .hbm, ⟨23, _⟩ => ⟨S_, .i32⟩
  | .hbm, ⟨24, _⟩ => ⟨S1700000, .i32⟩
  | .hbm, ⟨25, _⟩ => ⟨S1700000, .i32⟩
  | .hbm, ⟨26, _⟩ => ⟨S1700000, .i32⟩
  | .hbm, ⟨27, _⟩ => ⟨S1700000x1, .i32⟩
  | .hbm, ⟨28, _⟩ => ⟨S1700000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S100000x64, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000x40, .f32⟩
  | .hbm, ⟨72, _⟩ => ⟨S1700000x1, .f32⟩
  | .hbm, ⟨73, _⟩ => ⟨S1700000x40, .f32⟩
  | .hbm, ⟨74, _⟩ => ⟨S1700000x40, .f32⟩
  | .hbm, ⟨75, _⟩ => ⟨S_, .f32⟩
  | .hbm, ⟨76, _⟩ => ⟨S100000x40, .f32⟩
  | .hbm, ⟨77, _⟩ => ⟨S1700000x1, .i32⟩
  | .hbm, ⟨78, _⟩ => ⟨S100000x40, .f32⟩
  | .hbm, ⟨79, _⟩ => ⟨S1x40, .f32⟩
  | .hbm, ⟨80, _⟩ => ⟨S100000x40, .f32⟩
  | .hbm, ⟨81, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x40, .f32⟩
  | .local _ .vmem, ⟨8, _⟩ => ⟨S5000x40, .f32⟩
  | .local _ .vmem, ⟨9, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_9 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x40_S64x40_0_0 : ∀ a, (![0, 0] : Fin 2 → Nat) a + S64x40.size a ≤ S64x40.size a
  h_S64x40 : 0 < S64x40.numel
  inb_S5000x40_S5000x40_0_0 : ∀ a, (![0, 0] : Fin 2 → Nat) a + S5000x40.size a ≤ S5000x40.size a
  h_S5000x40 : 0 < S5000x40.numel
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x40_S5000x40_1_0_0_1_n_n_wf : DotDims.WF S5000x64 S64x40 S5000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x40.size a ≤ S100000x40.size a
  hwx1_2 : ∀ i : grid1.Coords, EltTy.bits .f32 = 32 ∨ (Rect.block (s := S100000x40) S5000x40.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x40 : Shape := ⟨2, ![64, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 101
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x40, .f32⟩
  | .hbm, ⟨5, _⟩ => ⟨S40, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S100000, .f32⟩
  | .hbm, ⟨20, _⟩ => ⟨S100000x64, .f32⟩
  | .hbm, ⟨21, _⟩ => ⟨S_, .i32⟩
  | .hbm, ⟨22, _⟩ => ⟨S1700000, .i32⟩
  | .hbm, ⟨23, _⟩ => ⟨S1700000, .i1⟩
  | .hbm, ⟨24, _⟩ => ⟨S_, .i32⟩
  | .hbm, ⟨25, _⟩ => ⟨S1700000, .i32⟩
  | .hbm, ⟨26, _⟩ => ⟨S1700000, .i32⟩
  | .hbm, ⟨27, _⟩ => ⟨S1700000, .i32⟩
  | .hbm, ⟨28, _⟩ => ⟨S1700000x1, .i32⟩
  | .hbm, ⟨29, _⟩ => ⟨S1700000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000x64, .f32⟩
  | .hbm, ⟨49, _⟩ => ⟨S1700000x1, .f32⟩
  | .hbm, ⟨50, _⟩ => ⟨S1700000x64, .f32⟩
  | .hbm, ⟨51, _⟩ => ⟨S1700000x64, .f32⟩
  | .hbm, ⟨52, _⟩ => ⟨S_, .f32⟩
  | .hbm, ⟨53, _⟩ => ⟨S100000x64, .f32⟩
  | .hbm, ⟨54, _⟩ => ⟨S1700000x1, .i32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S_, .f32⟩
  | .hbm, ⟨60, _⟩ => ⟨S100000x64, .f32⟩
  | .hbm, ⟨61, _⟩ => ⟨S100000x64, .f32⟩
  | .hbm, ⟨62, _⟩ => ⟨S100000x40, .f32⟩
  | .hbm, ⟨63, _⟩ => ⟨S_, .i32⟩
  | .hbm, ⟨64, _⟩ => ⟨S1700000, .i32⟩
  | .hbm, ⟨65, _⟩ => ⟨S1700000, .i1⟩
  | .hbm, ⟨66, _⟩ => ⟨S_, .i32⟩
  | .hbm, ⟨67, _⟩ => ⟨S1700000, .i32⟩
  | .hbm, ⟨68, _⟩ => ⟨S1700000, .i32⟩
  | .hbm, ⟨69, _⟩ => ⟨S1700000, .i32⟩
  | .hbm, ⟨70, _⟩ => ⟨S1700000x1, .i32⟩
  | .hbm, ⟨71, _⟩ => ⟨S1700000, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000, .f32⟩
  | .hbm, ⟨81, _⟩ => ⟨S1700000, .f32⟩
  | .hbm, ⟨82, _⟩ => ⟨S_, .i32⟩
  | .hbm, ⟨83, _⟩ => ⟨S1700000, .i32⟩
  | .hbm, ⟨84, _⟩ => ⟨S1700000, .i1⟩
  | .hbm, ⟨85, _⟩ => ⟨S_, .i32⟩
  | .hbm, ⟨86, _⟩ => ⟨S1700000, .i32⟩
  | .hbm, ⟨87, _⟩ => ⟨S1700000, .i32⟩
  | .hbm, ⟨88, _⟩ => ⟨S1700000, .i32⟩
  | .hbm, ⟨89, _⟩ => ⟨S1700000x1, .i32⟩
  | .hbm, ⟨90, _⟩ => ⟨S1700000x40, .f32⟩
  | .hbm, ⟨91, _⟩ => ⟨S1700000x1, .f32⟩
  | .hbm, ⟨92, _⟩ => ⟨S1700000x40, .f32⟩
  | .hbm, ⟨93, _⟩ => ⟨S1700000x40, .f32⟩
  | .hbm, ⟨94, _⟩ => ⟨S_, .f32⟩
  | .hbm, ⟨95, _⟩ => ⟨S100000x40, .f32⟩
  | .hbm, ⟨96, _⟩ => ⟨S1700000x1, .i32⟩
  | .hbm, ⟨97, _⟩ => ⟨S100000x40, .f32⟩
  | .hbm, ⟨98, _⟩ => ⟨S1x40, .f32⟩
  | .hbm, ⟨99, _⟩ => ⟨S100000x40, .f32⟩
  | .hbm, ⟨100, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_2 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_4 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  dot_S100000x128_S128x64_S100000x64_1_0_0_1_n_n_wf : DotDims.WF S100000x128 S128x64 S100000x64 [1] [0] [0] [1] [] []
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The kernel program's run, with its result named.

  The program is six stretches in order: host operations, the layer-1 region, host operations (two stretches), the
  layer-2 region, host operations.  The buffer contents at the boundaries between stretches form a chain, each link a
  function of the one before: a host stretch applies its operations, a region replaces its output array by what its
  write-backs leave and keeps everything else.  Every weakly fair execution terminates without a fault in a state whose
  unscoped buffers hold the last link of that chain.  Read at the result buffer, this says what the program returns;
  read at the argument buffers, that they are unchanged.
-/
import proofs.«112412_j68899865362997_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last link of the chain of
    boundary contents and the arguments as launched. -/
theorem run_result : θ_run defs (onTc (τ := τ) (main (F := F))) ⟨m, fun _ => 0, ρ⟩ (fun r => ∀ c : Dev nD,
      r.2.mem ((c.tc : Thread nD τ).loc main_v61) = W6 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v61 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Whole

end
-- ==== Proof.Layers.lean ====
/-
  The graph-convolution layers around the two matrix products, as functions of arrays.

  Both programs make the same host operations around their matrix products.  The edge list gets one self-loop per node
  appended (`srcOf`, `dstOf`: sources and destinations of the 1700000 edges); the degree of a node is the number of
  edges arriving at it, and an edge's weight is rsqrt(degree of its source) * rsqrt(degree of its destination)
  (`normOf`).  A layer then gathers the transformed features of each edge's source (a negative node index counts from
  the end), scales them by the edge's weight, adds them up at the edge's destination, and adds the bias row
  (`aggregate64`, `layer2`); the first layer ends with a relu (`layer1`).

  These definitions spell the operations exactly as the kernel program prints them, so that a stretch of the kernel's
  host operations is one of them by unfolding.
-/
import proofs.«112412_j68899865362997_1_alg».proof.Proof.Gen.KernelIdeal

noncomputable section

namespace Cert.Layers

open Cert.KernelIdeal Cert.KernelIdeal.Gen Idealize.ShloMosaic

variable {F : FTy → Type} [FloatOps F]

/-- The sources of the edges, one self-loop per node appended. -/
def srcOf (e : (⟨S2x1600000, .i32⟩ : BufTy).Contents (Elt F)) : (⟨S1700000, .i32⟩ : BufTy).Contents (Elt F) :=
  concatenate S1700000 0 [⟨S1600000, shapeCast _ (extractStridedSlice S1x1600000 ![0, 0] e slices_S2x1600000_S1x1600000_0_0) shapeCasts_S1x1600000_S1600000⟩,
    ⟨S100000, iotaInDim S100000 32 0⟩] concatenates_S1600000_S100000_S1700000_d0

/-- The destinations of the edges, one self-loop per node appended. -/
def dstOf (e : (⟨S2x1600000, .i32⟩ : BufTy).Contents (Elt F)) : (⟨S1700000, .i32⟩ : BufTy).Contents (Elt F) :=
  concatenate S1700000 0 [⟨S1600000, shapeCast _ (extractStridedSlice S1x1600000 ![1, 0] e slices_S2x1600000_S1x1600000_1_0) shapeCasts_S1x1600000_S1600000⟩,
    ⟨S100000, iotaInDim S100000 32 0⟩] concatenates_S1600000_S100000_S1700000_d0

/-- Node indices as a column of gather indices, a negative index counted from the end. -/
def gatherIdx (s : (⟨S1700000, .i32⟩ : BufTy).Contents (Elt F)) : (⟨S1700000x1, .i32⟩ : BufTy).Contents (Elt F) :=
  broadcastInDim S1700000x1 ![0] bcast_S1700000_S1700000x1_0
    (select (cmpi .slt s (broadcastInDim S1700000 ![] bcast_S_S1700000 (constantI S_ 32 0#32)))
      (addi s (broadcastInDim S1700000 ![] bcast_S_S1700000 (constantI S_ 32 100000#32))) s)

/-- rsqrt of each node's degree: the number of edges (self-loop included) arriving at it. -/
def dinvOf (d : (⟨S1700000, .i32⟩ : BufTy).Contents (Elt F)) : (⟨S100000, .f32⟩ : BufTy).Contents (Elt F) :=
  Host.rsqrt (Host.scatterAdd scatter_S100000_S1700000x1_S1700000_n_0_0_1
    (broadcastInDim S100000 ![] bcast_S_S100000 (constant (F := F) S_ .f32 0x00000000#32))
    (broadcastInDim S1700000x1 ![0] bcast_S1700000_S1700000x1_0 d)
    (broadcastInDim S1700000 ![] bcast_S_S1700000 (constant (F := F) S_ .f32 0x3F800000#32)))

/-- The weight of each edge from the two node arrays. -/
def normOfNodes (s d : (⟨S1700000, .i32⟩ : BufTy).Contents (Elt F)) : (⟨S1700000, .f32⟩ : BufTy).Contents (Elt F) :=
  mulf (Host.gather gather_S100000_S1700000x1_S1700000_n_0_n_n_0_1_1 (dinvOf d) (gatherIdx s))
    (Host.gather gather_S100000_S1700000x1_S1700000_n_0_n_n_0_1_1 (dinvOf d) (gatherIdx d))

/-- The weight of each edge, from the edge list. -/
def normOf (e : (⟨S2x1600000, .i32⟩ : BufTy).Contents (Elt F)) : (⟨S1700000, .f32⟩ : BufTy).Contents (Elt F) :=
  normOfNodes (srcOf e) (dstOf e)

/-- Layer 1 before its relu: gather, scale, add up at the destinations, add the bias row. -/
def aggregate64 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) : (⟨S100000x64, .f32⟩ : BufTy).Contents (Elt F) :=
  addf (Host.scatterAdd scatter_S100000x64_S1700000x1_S1700000x64_1_0_0_1
      (broadcastInDim S100000x64 ![] bcast_S_S100000x64 (constant (F := F) S_ .f32 0x00000000#32))
      (broadcastInDim S1700000x1 ![0] bcast_S1700000_S1700000x1_0 d)
      (mulf (Host.gather gather_S100000x64_S1700000x1_S1700000x64_1_0_n_n_0_1_164 h (gatherIdx s))
        (broadcastInDim S1700000x64 ![0, 1] bcast_S1700000x1_S1700000x64_0_1 (broadcastInDim S1700000x1 ![0] bcast_S1700000_S1700000x1_0 n))))
    (broadcastInDim S100000x64 ![0, 1] bcast_S1x64_S100000x64_0_1 (broadcastInDim S1x64 ![1] bcast_S64_S1x64_1 b))

/-- Layer 1: the aggregation, then relu. -/
def layer1 (h : (⟨S100000x64, .f32⟩ : BufTy).Contents (Elt F)) (s d : (⟨S1700000, .i32⟩ : BufTy).Contents (Elt F))
    (n : (⟨S1700000, .f32⟩ : BufTy).Contents (Elt F)) (b : (⟨S64, .f32⟩ : BufTy).Contents (Elt F)) : (⟨S100000x64, .f32⟩ : BufTy).Contents (Elt F) :=
  maximumf (aggregate64 h s d n b) (broadcastInDim S100000x64 ![] bcast_S_S100000x64 (constant (F := F) S_ .f32 0x00000000#32))

/-- Layer 2: gather, scale, add up at the destinations, add the bias row. -/
def layer2 (o : (⟨S100000x40, .f32⟩ : BufTy).Contents (Elt F)) (s d : (⟨S1700000, .i32⟩ : BufTy).Contents (Elt F))
    (n : (⟨S1700000, .f32⟩ : BufTy).Contents (Elt F)) (b : (⟨S40, .f32⟩ : BufTy).Contents (Elt F)) : (⟨S100000x40, .f32⟩ : BufTy).Contents (Elt F) :=
  addf (Host.scatterAdd scatter_S100000x40_S1700000x1_S1700000x40_1_0_0_1
      (broadcastInDim S100000x40 ![] bcast_S_S100000x40 (constant (F := F) S_ .f32 0x00000000#32))
      (broadcastInDim S1700000x1 ![0] bcast_S1700000_S1700000x1_0 d)
      (mulf (Host.gather gather_S100000x40_S1700000x1_S1700000x40_1_0_n_n_0_1_140 o (gatherIdx s))
        (broadcastInDim S1700000x40 ![0, 1] bcast_S1700000x1_S1700000x40_0_1 (broadcastInDim S1700000x1 ![0] bcast_S1700000_S1700000x1_0 n))))
    (broadcastInDim S100000x40 ![0, 1] bcast_S1x40_S100000x40_0_1 (broadcastInDim S1x40 ![1] bcast_S40_S1x40_1 b))

end Cert.Layers

end
-- ==== Proof.HostStretches.lean ====
/-
  The kernel program's host stretches, each as a function of the buffers it starts from.

  A stretch of host operations turns buffer contents into buffer contents.  Read at the buffer a later stretch or the
  caller needs, each stretch is one of the functions of Layers: the first stretch computes the edge sources, the edge
  destinations and the edge weights from the edge list; the stretch after the layer-1 region computes the hidden
  activations from the region's output; the last stretch computes the result from the layer-2 region's output.  A buffer
  a stretch does not write keeps its contents.  Everything is stated from ARBITRARY starting contents `X`, so nothing
  here depends on what came before the stretch.
-/
import proofs.«112412_j68899865362997_1_alg».proof.Proof.Gen.KernelIdeal.Launch
import proofs.«112412_j68899865362997_1_alg».proof.Proof.Layers
import Idealize.ShloMosaic.Lib.StableHlo.Run

set_option maxRecDepth 16384

noncomputable section

namespace Cert.KernelIdeal.Stretch

open Cert.KernelIdeal Cert.KernelIdeal.Gen Cert.Layers
open Idealize.ShloMosaic Idealize.ShloMosaic.TcCoe Idealize.SL.Sem Idealize.ShloMosaic.StableHlo

variable {F : FTy → Type} [FloatOps F]
variable (X : Valuation τ sig (Elt F))

/-! ## Before layer 1 -/

theorem first_src : after hostOps0 X (Proc.devRef .tc main_v3) = srcOf (X (Proc.devRef .tc main_arg1)) := by
  after_results_simp <;> rfl
theorem first_dst : after hostOps0 X (Proc.devRef .tc main_v6) = dstOf (X (Proc.devRef .tc main_arg1)) := by
  after_results_simp <;> rfl
theorem first_norm : after hostOps0 X (Proc.devRef .tc main_v26) = normOf (X (Proc.devRef .tc main_arg1)) := by
  after_results_simp <;> rfl
theorem first_arg0 : after hostOps0 X (Proc.devRef .tc main_arg0) = X (Proc.devRef .tc main_arg0) := by
  after_results_simp <;> rfl
theorem first_arg2 : after hostOps0 X (Proc.devRef .tc main_arg2) = X (Proc.devRef .tc main_arg2) := by
  after_results_simp <;> rfl
theorem first_arg3 : after hostOps0 X (Proc.devRef .tc main_arg3) = X (Proc.devRef .tc main_arg3) := by
  after_results_simp <;> rfl
theorem first_arg4 : after hostOps0 X (Proc.devRef .tc main_arg4) = X (Proc.devRef .tc main_arg4) := by
  after_results_simp <;> rfl
theorem first_arg5 : after hostOps0 X (Proc.devRef .tc main_arg5) = X (Proc.devRef .tc main_arg5) := by
  after_results_simp <;> rfl

/-! ## Between the layers -/

theorem mid_hidden : after hostOps1_1 (after hostOps1 X) (Proc.devRef .tc main_v44)
    = layer1 (X (Proc.devRef .tc main_v27)) (X (Proc.devRef .tc main_v3)) (X (Proc.devRef .tc main_v6)) (X (Proc.devRef .tc main_v26)) (X (Proc.devRef .tc main_arg3)) := by
  after_results_simp <;> rfl
theorem mid_src : after hostOps1_1 (after hostOps1 X) (Proc.devRef .tc main_v3) = X (Proc.devRef .tc main_v3) := by
  after_results_simp <;> rfl
theorem mid_dst : after hostOps1_1 (after hostOps1 X) (Proc.devRef .tc main_v6) = X (Proc.devRef .tc main_v6) := by
  after_results_simp <;> rfl
theorem mid_norm : after hostOps1_1 (after hostOps1 X) (Proc.devRef .tc main_v26) = X (Proc.devRef .tc main_v26) := by
  after_results_simp <;> rfl
theorem mid_arg4 : after hostOps1_1 (after hostOps1 X) (Proc.devRef .tc main_arg4) = X (Proc.devRef .tc main_arg4) := by
  after_results_simp <;> rfl
theorem mid_arg5 : after hostOps1_1 (after hostOps1 X) (Proc.devRef .tc main_arg5) = X (Proc.devRef .tc main_arg5) := by
  after_results_simp <;> rfl

/-! ## After layer 2 -/

theorem last_result : after hostOps2 X (Proc.devRef .tc main_v61)
    = layer2 (X (Proc.devRef .tc main_v45)) (X (Proc.devRef .tc main_v3)) (X (Proc.devRef .tc main_v6)) (X (Proc.devRef .tc main_v26)) (X (Proc.devRef .tc main_arg5)) := by
  after_results_simp <;> rfl

end Cert.KernelIdeal.Stretch

end
-- ==== Proof.LibPlainMatmul.lean ====
/-
  A plain matrix product read at an entry.

  A matrix unit's product of an M x K matrix by a K x N matrix, accumulated into the zero matrix, holds at entry
  (p, c) the sum over k of the left matrix at (p, k) times the right matrix at (k, c): at the exact extended reals
  there is no rounding and no order of accumulation left, and the zero accumulator adds nothing.

  The product's dimension numbers arrive as a record; what is used of it is only that it contracts one axis of extent K
  and how it places the coordinates: the left operand is read at (row of the result, k), the right operand at
  (k, column of the result).  These four placement facts are hypotheses, so the lemma serves any record of that pattern.
  Nothing here mentions a program.
-/
import Idealize.ShloMosaic.PureOps.Ideal
import Idealize.ShloMosaic.PureOps.Ideal.Laws
import Idealize.ShloMosaic.Lib.ValueIdx

noncomputable section

open scoped BigOperators

namespace Cert.PlainMatmul

open Idealize.ShloMosaic Idealize.ShloMosaic.ValueIdx

/-- Entry (p, c) of an M x K by K x N product into the zero accumulator is the sum over k of left (p, k) * right (k, c). -/
theorem matmul_zero_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    matmul D prec l r (constant (F := Ideal) (⟨2, ![M, N]⟩ : Shape) .f32 0x00000000#32) (ix2 p c)
      = ∑ k : Fin K, l (ix2 p k) * r (ix2 k c) := by
  refine (Ideal.matmul_constant_zero_apply D prec l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainMatmul

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.MatmulEntry.lean ====
/-
  The two matrix products of the network, each read at an entry.

  Both layers multiply a row-block of activations by a small weight matrix.  In the kernel a block of 5000 rows is
  narrowed to bf16 and multiplied on the matrix unit into a zero accumulator; in the reference the whole 100000-row
  array is multiplied at once by the host.  At the exact extended reals narrowing changes nothing, so either way entry
  (p, c) of the product is the sum over k of left (p, k) times right (k, c).  `matProd` is that whole-array function,
  the common meaning of the four products.
-/
import proofs.«112412_j68899865362997_1_alg».proof.Proof.Gen.KernelIdeal.Skeleton
import proofs.«112412_j68899865362997_1_alg».proof.Proof.Gen.ReferenceIdeal.Read
import proofs.«112412_j68899865362997_1_alg».proof.Proof.LibPlainMatmul
import proofs.«112412_j68899865362997_1_alg».proof.Proof.LibHostRowOps

noncomputable section

open scoped BigOperators

namespace Cert.MatmulEntry

open Idealize.ShloMosaic Idealize.ShloMosaic.ValueIdx

/-- The product of an M x K array by a K x N array as one function of the result's index. -/
def matProd {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (⟨(i 0).val, idx2_lt0 i⟩ : Fin M) k) * w (ix2 k (⟨(i 1).val, idx2_lt1 i⟩ : Fin N))

theorem matProd_ix2 {M K N : Nat} (x : (⟨2, ![M, K]⟩ : Shape).Idx → EReal) (w : (⟨2, ![K, N]⟩ : Shape).Idx → EReal)
    (p : Fin M) (c : Fin N) : matProd x w (ix2 p c) = ∑ k : Fin K, x (ix2 p k) * w (ix2 k c) := rfl

/-! ## The kernel's two blocks -/

section Kernel

open Cert.KernelIdeal Cert.KernelIdeal.Gen

theorem k0_lhs0 (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem k0_lhs1 (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
theorem k0_rhs0 (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
theorem k0_rhs1 (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Layer 1's block: entry (p, c) of the 5000 x 128 block times the 128 x 64 weights. -/
theorem pay0_entry (x0 : Vec Ideal S5000x128 .f32) (x1 : Vec Ideal S128x64 .f32) (p : Fin 5000) (c : Fin 64) :
    k0_pay1 (F := Ideal) x0 x1 (ix2 p c) = ∑ k : Fin 128, x0 (ix2 p k) * x1 (ix2 k c) :=
  Cert.PlainMatmul.matmul_zero_apply dot_S5000x128_S128x64_S5000x64_1_0_0_1_n_n rfl rfl k0_lhs0 k0_lhs1 k0_rhs0 k0_rhs1 none
    (truncf .bf16 x0 bitsLt_bf16_f32) (truncf .bf16 x1 bitsLt_bf16_f32) p c

theorem k1_lhs0 (j : S5000x40.Idx) (q : dot_S5000x64_S64x40_S5000x40_1_0_0_1_n_n.contr.Idx) :
    (dot_S5000x64_S64x40_S5000x40_1_0_0_1_n_n.lhsIdx j q 0).val = (j 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem k1_lhs1 (j : S5000x40.Idx) (q : dot_S5000x64_S64x40_S5000x40_1_0_0_1_n_n.contr.Idx) :
    (dot_S5000x64_S64x40_S5000x40_1_0_0_1_n_n.lhsIdx j q 1).val = (q ⟨0, by decide⟩).val :=
  dot_S5000x64_S64x40_S5000x40_1_0_0_1_n_n.lhsIdx_val_of_single rfl j q
theorem k1_rhs0 (j : S5000x40.Idx) (q : dot_S5000x64_S64x40_S5000x40_1_0_0_1_n_n.contr.Idx) :
    (dot_S5000x64_S64x40_S5000x40_1_0_0_1_n_n.rhsIdx j q 0).val = (q ⟨0, by decide⟩).val :=
  dot_S5000x64_S64x40_S5000x40_1_0_0_1_n_n.rhsIdx_val_of_single rfl j q
theorem k1_rhs1 (j : S5000x40.Idx) (q : dot_S5000x64_S64x40_S5000x40_1_0_0_1_n_n.contr.Idx) :
    (dot_S5000x64_S64x40_S5000x40_1_0_0_1_n_n.rhsIdx j q 1).val = (j 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl

/-- Layer 2's block: entry (p, c) of the 5000 x 64 block times the 64 x 40 weights (the block's cast to its own shape
    is the identity). -/
theorem pay1_entry (x0 : Vec Ideal S5000x64 .f32) (x1 : Vec Ideal S64x40 .f32) (p : Fin 5000) (c : Fin 40) :
    k1_pay1 (F := Ideal) x0 x1 (ix2 p c) = ∑ k : Fin 64, x0 (ix2 p k) * x1 (ix2 k c) := by
  unfold k1_pay1
  rw [shapeCast_self]
  exact Cert.PlainMatmul.matmul_zero_apply dot_S5000x64_S64x40_S5000x40_1_0_0_1_n_n rfl rfl k1_lhs0 k1_lhs1 k1_rhs0 k1_rhs1 none
    (truncf .bf16 x0 bitsLt_bf16_f32) (truncf .bf16 x1 bitsLt_bf16_f32) p c

end Kernel

/-! ## The reference's two products -/

section Reference

open Cert.ReferenceIdeal Cert.ReferenceIdeal.Gen Cert.ReferenceIdeal.Read

/-- The host's 100000 x 128 by 128 x 64 product is `matProd`. -/
theorem hostDot1_eq (x : FVec Ideal S100000x128 .f32) (w : FVec Ideal S128x64 .f32) :
    Host.dotGeneral (F := Ideal) dot_S100000x128_S128x64_S100000x64_1_0_0_1_n_n none x w = matProd (M := 100000) (K := 128) (N := 64) x w := by
  funext i
  obtain ⟨p, c, rfl⟩ : ∃ (p : Fin 100000) (c : Fin 64), i = ix2 p c := ⟨i 0, i 1, eq_ix2 i⟩
  exact Cert.HostRowOps.hostDot_apply dot_S100000x128_S128x64_S100000x64_1_0_0_1_n_n rfl rfl lhs_main_v12_0 lhs_main_v12_1 rhs_main_v12_0 rhs_main_v12_1 none x w p c

/-- The host's 100000 x 64 by 64 x 40 product is `matProd`. -/
theorem hostDot2_eq (x : FVec Ideal S100000x64 .f32) (w : FVec Ideal S64x40 .f32) :
    Host.dotGeneral (F := Ideal) dot_S100000x64_S64x40_S100000x40_1_0_0_1_n_n none x w = matProd (M := 100000) (K := 64) (N := 40) x w := by
  funext i
  obtain ⟨p, c, rfl⟩ : ∃ (p : Fin 100000) (c : Fin 40), i = ix2 p c := ⟨i 0, i 1, eq_ix2 i⟩
  exact Cert.HostRowOps.hostDot_apply dot_S100000x64_S64x40_S100000x40_1_0_0_1_n_n rfl rfl lhs_main_v45_0 lhs_main_v45_1 rhs_main_v45_0 rhs_main_v45_1 none x w p c

end Reference

end Cert.MatmulEntry

end
-- ==== Proof.Layer1Block.lean ====
/-
  Layer 1's kernel region, read as a whole array.

  The region walks the 100000 rows of the activations in 20 blocks of 5000 rows; at block t it multiplies rows
  5000 t ... 5000 t + 4999 by the whole 128 x 64 weight matrix and writes the 5000 x 64 result back to the same rows
  of the output.  Whatever the arrays hold when the region is entered, the output array therefore ends as the matrix
  product of the two, entry by entry: row r is written by block r / 5000, and every row is in exactly one block.
-/
import proofs.«112412_j68899865362997_1_alg».proof.Proof.Gen.KernelIdeal.Frame
import proofs.«112412_j68899865362997_1_alg».proof.Proof.MatmulEntry
import Idealize.ShloMosaic.Lib.Pipeline.Value
import Idealize.ShloMosaic.Lib.ValueIdx

set_option maxRecDepth 16384

noncomputable section

open scoped BigOperators

namespace Cert.KernelIdeal.Layer1

open Cert.KernelIdeal Cert.KernelIdeal.Gen Cert.MatmulEntry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where block t sits: the activations and the output at row-block t, the weights whole. -/
theorem block_places : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 20 := lt_of_lt_of_eq t.isLt N_0

/-- What block t writes back is rows 5000 t ... of the product of the arrays as the region finds them. -/
theorem flushed_eq (c : Dev nD) (t : Fin cfg0.N) :
    (dat0 (F := Ideal) V c).flushed 2 t
      = ((cfg0.win 2).blk t).view.read (Elt Ideal) (matProd (M := 100000) (K := 128) (N := 64) (V c main_arg0) (V c main_arg2)) := by
  show (cfg0.win 2).cut (grid0.coords t) ((dat0 (F := Ideal) V c).after 2 t) = _
  rw [after0_2]
  unfold out0_2
  rw [View.canon_unit_zero zero_offsets]
  simp only [View.ld_unit_zero (S := S5000x128) zero_offsets, View.ld_unit_zero (S := S128x64) zero_offsets]
  obtain ⟨e0, e1, e2, e3, e4, e5⟩ := block_places t
  have ht := point_lt t
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (ix2 p q)
    = matProd (M := 100000) (K := 128) (N := 64) (V c main_arg0) (V c main_arg2) (((cfg0.win 2).blk t).view.emb (ix2 p q))
  refine (pay0_entry (iblk0 V c 0 t) (iblk0 V c 1 t) p q).trans ?_
  have hp := p.isLt
  have hemb : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hemb, matProd_ix2]
  refine Finset.sum_congr rfl fun k _ => ?_
  have h0 : iblk0 V c 0 t (ix2 p k) = V c main_arg0 (ix2 (⟨t.val * 5000 + p.val, by omega⟩ : Fin 100000) k) := by
    show V c main_arg0 (((cfg0.win 0).blk t).view.emb (ix2 p k)) = _
    refine congrArg (V c main_arg0) ?_
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : iblk0 V c 1 t (ix2 k q) = V c main_arg2 (ix2 k q) := by
    show V c main_arg2 (((cfg0.win 1).blk t).view.emb (ix2 k q)) = _
    refine congrArg (V c main_arg2) ?_
    funext a; apply Fin.ext
    match a with
    | ⟨0, _⟩ => show win0_1.index t (0 : Fin 2) * 128 + 1 * k.val = k.val; omega
    | ⟨1, _⟩ => show win0_1.index t (1 : Fin 2) * 64 + 1 * q.val = q.val; omega
  rw [h0, h1]

/-- An index of the output is in block t iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v27).slice (win0_2.rect t)).set ↔ _
  rw [View.set_slice_whole, Rect.mem_set_unit]
  exact Iff.rfl

/-- Every row of the output is in some block: row r in block r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; omega⟩
  obtain ⟨e0, e1, e2, e3, e4, e5⟩ := block_places t
  have ht : t.val = (i 0).val / 5000 := rfl
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region is the product of the arrays the region was entered with. -/
theorem final (c : Dev nD) :
    (dat0 (F := Ideal) V c).arrAt 2 cfg0.N = matProd (M := 100000) (K := 128) (N := 64) (V c main_arg0) (V c main_arg2) :=
  (dat0 (F := Ideal) V c).arrAt_eq_of_cover 2 _ (fun t _ => flushed_eq V c t) covered

end Cert.KernelIdeal.Layer1

end
-- ==== Proof.Layer2Block.lean ====
/-
  Layer 2's kernel region, read as a whole array.

  The region walks the 100000 rows of the hidden activations in 20 blocks of 5000 rows; at block t it multiplies rows
  5000 t ... 5000 t + 4999 by the whole 64 x 40 weight matrix and writes the 5000 x 40 result back to the same rows
  of the output.  Whatever the arrays hold when the region is entered, the output array therefore ends as the matrix
  product of the two, entry by entry: row r is written by block r / 5000, and every row is in exactly one block.
-/
import proofs.«112412_j68899865362997_1_alg».proof.Proof.Gen.KernelIdeal.Frame
import proofs.«112412_j68899865362997_1_alg».proof.Proof.MatmulEntry
import Idealize.ShloMosaic.Lib.Pipeline.Value
import Idealize.ShloMosaic.Lib.ValueIdx

set_option maxRecDepth 16384

noncomputable section

open scoped BigOperators

namespace Cert.KernelIdeal.Layer2

open Cert.KernelIdeal Cert.KernelIdeal.Gen Cert.MatmulEntry
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-- Where block t sits: the activations and the output at row-block t, the weights whole. -/
theorem block_places : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem point_lt (t : Fin cfg1.N) : t.val < 20 := lt_of_lt_of_eq t.isLt N_1

/-- What block t writes back is rows 5000 t ... of the product of the arrays as the region finds them. -/
theorem flushed_eq (c : Dev nD) (t : Fin cfg1.N) :
    (dat1 (F := Ideal) V c).flushed 2 t
      = ((cfg1.win 2).blk t).view.read (Elt Ideal) (matProd (M := 100000) (K := 64) (N := 40) (V c main_v44) (V c main_arg4)) := by
  show (cfg1.win 2).cut (grid1.coords t) ((dat1 (F := Ideal) V c).after 2 t) = _
  rw [after1_2]
  unfold out1_2
  rw [View.canon_unit_zero zero_offsets]
  simp only [View.ld_unit_zero (S := S5000x64) zero_offsets, View.ld_unit_zero (S := S64x40) zero_offsets]
  obtain ⟨e0, e1, e2, e3, e4, e5⟩ := block_places t
  have ht := point_lt t
  funext j
  obtain ⟨p, q, rfl⟩ : ∃ (p : Fin 5000) (q : Fin 40), j = ix2 p q := ⟨j 0, j 1, eq_ix2 j⟩
  show k1_pay1 (F := Ideal) (iblk1 V c 0 t) (iblk1 V c 1 t) (ix2 p q)
    = matProd (M := 100000) (K := 64) (N := 40) (V c main_v44) (V c main_arg4) (((cfg1.win 2).blk t).view.emb (ix2 p q))
  refine (pay1_entry (iblk1 V c 0 t) (iblk1 V c 1 t) p q).trans ?_
  have hp := p.isLt
  have hemb : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 40 + 1 * q.val = q.val; omega
  rw [hemb, matProd_ix2]
  refine Finset.sum_congr rfl fun k _ => ?_
  have h0 : iblk1 V c 0 t (ix2 p k) = V c main_v44 (ix2 (⟨t.val * 5000 + p.val, by omega⟩ : Fin 100000) k) := by
    show V c main_v44 (((cfg1.win 0).blk t).view.emb (ix2 p k)) = _
    refine congrArg (V c main_v44) ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * k.val = k.val; omega
  have h1 : iblk1 V c 1 t (ix2 k q) = V c main_arg4 (ix2 k q) := by
    show V c main_arg4 (((cfg1.win 1).blk t).view.emb (ix2 k q)) = _
    refine congrArg (V c main_arg4) ?_
    funext a; apply Fin.ext
    match a with
    | ⟨0, _⟩ => show win1_1.index t (0 : Fin 2) * 64 + 1 * k.val = k.val; omega
    | ⟨1, _⟩ => show win1_1.index t (1 : Fin 2) * 40 + 1 * q.val = q.val; omega
  rw [h0, h1]

/-- An index of the output is in block t iff each coordinate is in the block's range on its axis. -/
theorem mem_blk (t : Fin cfg1.N) (i : S100000x40.Idx) :
    i ∈ ((cfg1.win 2).blk t).view.set ↔ ∀ a : Fin 2, win1_2.index t a * S5000x40.size a ≤ (i a).val ∧ (i a).val < win1_2.index t a * S5000x40.size a + S5000x40.size a := by
  show i ∈ ((View.whole main_v45).slice (win1_2.rect t)).set ↔ _
  rw [View.set_slice_whole, Rect.mem_set_unit]
  exact Iff.rfl

/-- Every row of the output is in some block: row r in block r / 5000. -/
theorem covered (i : S100000x40.Idx) :
    ∃ t : Fin cfg1.N, (cfg1.win 2).flush t = true ∧ i ∈ ((cfg1.win 2).blk t).view.set := by
  have hi0 : (i 0).val < 100000 := (i 0).isLt
  have hi1 : (i 1).val < 40 := (i 1).isLt
  have hN : grid1.N = 20 := N_1
  let t : Fin cfg1.N := ⟨(i 0).val / 5000, by show (i 0).val / 5000 < grid1.N; omega⟩
  obtain ⟨e0, e1, e2, e3, e4, e5⟩ := block_places t
  have ht : t.val = (i 0).val / 5000 := rfl
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 40 ≤ (i 1).val ∧ (i 1).val < win1_2.index t (1 : Fin 2) * 40 + 40; omega

/-- The output array after the region is the product of the arrays the region was entered with. -/
theorem final (c : Dev nD) :
    (dat1 (F := Ideal) V c).arrAt 2 cfg1.N = matProd (M := 100000) (K := 64) (N := 40) (V c main_v44) (V c main_arg4) :=
  (dat1 (F := Ideal) V c).arrAt_eq_of_cover 2 _ (fun t _ => flushed_eq V c t) covered

end Cert.KernelIdeal.Layer2

end
-- ==== Proof.Network.lean ====
/-
  The whole network as one function of the six argument arrays.

  Two graph-convolution layers: features times the first weight matrix, aggregated over the edges with the first bias
  and a relu; the hidden activations times the second weight matrix, aggregated over the same edges with the second
  bias.  Both programs are shown to return this function of their arguments.
-/
import proofs.«112412_j68899865362997_1_alg».proof.Proof.Layers
import proofs.«112412_j68899865362997_1_alg».proof.Proof.MatmulEntry

noncomputable section

namespace Cert.Network

open Cert.KernelIdeal Cert.KernelIdeal.Gen Cert.Layers Cert.MatmulEntry Idealize.ShloMosaic

/-- The network's output from the features `x`, the edge list `e`, and the weights and biases of the two layers. -/
def gcn (x : (⟨S100000x128, .f32⟩ : BufTy).Contents (Elt Ideal)) (e : (⟨S2x1600000, .i32⟩ : BufTy).Contents (Elt Ideal))
    (w1 : (⟨S128x64, .f32⟩ : BufTy).Contents (Elt Ideal)) (b1 : (⟨S64, .f32⟩ : BufTy).Contents (Elt Ideal))
    (w2 : (⟨S64x40, .f32⟩ : BufTy).Contents (Elt Ideal)) (b2 : (⟨S40, .f32⟩ : BufTy).Contents (Elt Ideal)) :
    (⟨S100000x40, .f32⟩ : BufTy).Contents (Elt Ideal) :=
  layer2 (matProd (M := 100000) (K := 64) (N := 40)
      (layer1 (matProd (M := 100000) (K := 128) (N := 64) x w1) (srcOf e) (dstOf e) (normOf e) b1) w2)
    (srcOf e) (dstOf e) (normOf e) b2

end Cert.Network

end
-- ==== Proof.KernelValue.lean ====
/-
  The kernel program returns the network function.

  The chain of boundary contents of the kernel program's run, followed link by link at the buffers that matter.  The
  first host stretch leaves the edge sources, destinations and weights, functions of the edge list alone, and no later
  stretch or region writes them.  The layer-1 region leaves the product of the features and the first weights; the
  next host stretch turns it into the hidden activations; the layer-2 region leaves their product with the second
  weights; the last host stretch turns that into the result.  No stretch and no region writes an argument.
-/
import proofs.«112412_j68899865362997_1_alg».proof.Proof.KernelRun
import proofs.«112412_j68899865362997_1_alg».proof.Proof.HostStretches
import proofs.«112412_j68899865362997_1_alg».proof.Proof.Layer1Block
import proofs.«112412_j68899865362997_1_alg».proof.Proof.Layer2Block
import proofs.«112412_j68899865362997_1_alg».proof.Proof.Network

set_option maxRecDepth 16384

noncomputable section

namespace Cert.KernelIdeal.Whole

open Cert.KernelIdeal Cert.KernelIdeal.Gen Cert.Layers Cert.MatmulEntry Cert.Network
open Idealize.ShloMosaic Idealize.ShloMosaic.TcCoe Idealize.SL.Sem

variable (m : (ℓ : Loc nD τ sig) → Buf (Elt Ideal) ℓ) (ρ : Dev nD → PrngReg) (c : Dev nD)

/-! ## The edge arrays, at every later boundary -/

theorem src1 : W1 m ρ c (Proc.devRef .tc main_v3) = srcOf (m ((c : Thread nD τ).loc main_arg1)) := Stretch.first_src (W0 m ρ c)
theorem dst1 : W1 m ρ c (Proc.devRef .tc main_v6) = dstOf (m ((c : Thread nD τ).loc main_arg1)) := Stretch.first_dst (W0 m ρ c)
theorem norm1 : W1 m ρ c (Proc.devRef .tc main_v26) = normOf (m ((c : Thread nD τ).loc main_arg1)) := Stretch.first_norm (W0 m ρ c)

theorem src2 : W2 m ρ c (Proc.devRef .tc main_v3) = srcOf (m ((c : Thread nD τ).loc main_arg1)) :=
  (W2_of_ne m ρ c main_v3 (by decide)).trans (src1 m ρ c)
theorem dst2 : W2 m ρ c (Proc.devRef .tc main_v6) = dstOf (m ((c : Thread nD τ).loc main_arg1)) :=
  (W2_of_ne m ρ c main_v6 (by decide)).trans (dst1 m ρ c)
theorem norm2 : W2 m ρ c (Proc.devRef .tc main_v26) = normOf (m ((c : Thread nD τ).loc main_arg1)) :=
  (W2_of_ne m ρ c main_v26 (by decide)).trans (norm1 m ρ c)

theorem src5 : W5 m ρ c (Proc.devRef .tc main_v3) = srcOf (m ((c : Thread nD τ).loc main_arg1)) :=
  (W5_of_ne m ρ c main_v3 (by decide)).trans ((Stretch.mid_src (W2 m ρ c)).trans (src2 m ρ c))
theorem dst5 : W5 m ρ c (Proc.devRef .tc main_v6) = dstOf (m ((c : Thread nD τ).loc main_arg1)) :=
  (W5_of_ne m ρ c main_v6 (by decide)).trans ((Stretch.mid_dst (W2 m ρ c)).trans (dst2 m ρ c))
theorem norm5 : W5 m ρ c (Proc.devRef .tc main_v26) = normOf (m ((c : Thread nD τ).loc main_arg1)) :=
  (W5_of_ne m ρ c main_v26 (by decide)).trans ((Stretch.mid_norm (W2 m ρ c)).trans (norm2 m ρ c))

/-! ## The arguments the later stretches read -/

theorem arg3_2 : W2 m ρ c (Proc.devRef .tc main_arg3) = m ((c : Thread nD τ).loc main_arg3) :=
  (W2_of_ne m ρ c main_arg3 (by decide)).trans (Stretch.first_arg3 (W0 m ρ c))
theorem arg4_4 : W4 m ρ c (Proc.devRef .tc main_arg4) = m ((c : Thread nD τ).loc main_arg4) :=
  (Stretch.mid_arg4 (W2 m ρ c)).trans ((W2_of_ne m ρ c main_arg4 (by decide)).trans (Stretch.first_arg4 (W0 m ρ c)))
theorem arg5_5 : W5 m ρ c (Proc.devRef .tc main_arg5) = m ((c : Thread nD τ).loc main_arg5) :=
  (W5_of_ne m ρ c main_arg5 (by decide)).trans ((Stretch.mid_arg5 (W2 m ρ c)).trans
    ((W2_of_ne m ρ c main_arg5 (by decide)).trans (Stretch.first_arg5 (W0 m ρ c))))

/-! ## The layers -/

/-- After the layer-1 region its output holds the features times the first weights. -/
theorem prod1 : W2 m ρ c (Proc.devRef .tc main_v27)
    = matProd (M := 100000) (K := 128) (N := 64) (m ((c : Thread nD τ).loc main_arg0)) (m ((c : Thread nD τ).loc main_arg2)) :=
  (W2_arr m ρ c 2).trans ((Layer1.final (V1 m ρ) c).trans
    (congrArg₂ (matProd (M := 100000) (K := 128) (N := 64)) (Stretch.first_arg0 (W0 m ρ c)) (Stretch.first_arg2 (W0 m ρ c))))

/-- The hidden activations the layer-2 region is entered with. -/
theorem hidden4 : W4 m ρ c (Proc.devRef .tc main_v44)
    = layer1 (matProd (M := 100000) (K := 128) (N := 64) (m ((c : Thread nD τ).loc main_arg0)) (m ((c : Thread nD τ).loc main_arg2)))
        (srcOf (m ((c : Thread nD τ).loc main_arg1))) (dstOf (m ((c : Thread nD τ).loc main_arg1))) (normOf (m ((c : Thread nD τ).loc main_arg1)))
        (m ((c : Thread nD τ).loc main_arg3)) := by
  refine (Stretch.mid_hidden (W2 m ρ c)).trans ?_
  rw [prod1 m ρ c, src2 m ρ c, dst2 m ρ c, norm2 m ρ c, arg3_2 m ρ c]

/-- After the layer-2 region its output holds the hidden activations times the second weights. -/
theorem prod2 : W5 m ρ c (Proc.devRef .tc main_v45)
    = matProd (M := 100000) (K := 64) (N := 40) (W4 m ρ c (Proc.devRef .tc main_v44)) (m ((c : Thread nD τ).loc main_arg4)) :=
  (W5_arr m ρ c 2).trans ((Layer2.final (V4 m ρ) c).trans
    (congrArg (matProd (M := 100000) (K := 64) (N := 40) (W4 m ρ c (Proc.devRef .tc main_v44))) (arg4_4 m ρ c)))

/-- The result buffer at the end of the chain is the network function of the arguments. -/
theorem result_eq : W6 m ρ c (Proc.devRef .tc main_v61)
    = gcn (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (Stretch.last_result (W5 m ρ c)).trans ?_
  rw [prod2 m ρ c, hidden4 m ρ c, src5 m ρ c, dst5 m ρ c, norm5 m ρ c, arg5_5 m ρ c]
  rfl

/-- The kernel program's run: the result is the network function of the arguments, the arguments unchanged. -/
theorem run : θ_run defs (onTc (τ := τ) (main (F := Ideal))) ⟨m, fun _ => 0, ρ⟩ (fun r => ∀ c : Dev nD,
      r.2.mem ((c.tc : Thread nD τ).loc main_v61)
        = gcn (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result_eq m ρ c), (h c).2⟩) (run_result m ρ)

end Cert.KernelIdeal.Whole

end
-- ==== Proof.RefValue.lean ====
/-
  The reference program returns the network function.

  The reference's operations, read one at a time, are the same gathers, scalings, scatter-adds and bias additions as the
  layer functions, around two host matrix products; it computes the edge weights twice, from the same node arrays, where
  the layer functions name them once.  Stage by stage the reference's values are the layer functions by unfolding, and
  each host matrix product is the entry-by-entry product.
-/
import proofs.«112412_j68899865362997_1_alg».proof.Proof.Gen.ReferenceIdeal.Read
import proofs.«112412_j68899865362997_1_alg».proof.Proof.Network

set_option maxRecDepth 16384

noncomputable section

namespace Cert.RefValue

open Cert.ReferenceIdeal Cert.ReferenceIdeal.Gen Cert.ReferenceIdeal.Read
open Cert.Layers Cert.MatmulEntry Cert.Network Idealize.ShloMosaic

variable {F : FTy → Type} [FloatOps F]

variable (x0 : (⟨S100000x128, .f32⟩ : BufTy).Contents (Elt F)) (x1 : (⟨S2x1600000, .i32⟩ : BufTy).Contents (Elt F))
  (x2 : (⟨S128x64, .f32⟩ : BufTy).Contents (Elt F)) (x3 : (⟨S64, .f32⟩ : BufTy).Contents (Elt F))
  (x4 : (⟨S64x40, .f32⟩ : BufTy).Contents (Elt F)) (x5 : (⟨S40, .f32⟩ : BufTy).Contents (Elt F))

theorem src_eq : val_main_v3 (F := F) x1 = srcOf x1 := rfl
theorem dst_eq : val_main_v6 (F := F) x1 = dstOf x1 := rfl
/-- The edge weights of the first layer ... -/
theorem norm1_eq : val_main_v27 (F := F) x1 = normOfNodes (val_main_v3 (F := F) x1) (val_main_v6 (F := F) x1) := rfl
/-- ... and of the second: the same function of the same node arrays. -/
theorem norm2_eq : val_main_v60 (F := F) x1 = normOfNodes (val_main_v3 (F := F) x1) (val_main_v6 (F := F) x1) := rfl

theorem hidden_eq : val_main_v44 (F := F) x0 x1 x2 x3
    = layer1 (val_main_v12 (F := F) x0 x2) (val_main_v3 (F := F) x1) (val_main_v6 (F := F) x1) (val_main_v27 (F := F) x1) x3 := rfl

theorem out_eq : val_main_v76 (F := F) x0 x1 x2 x3 x4 x5
    = layer2 (Host.dotGeneral dot_S100000x64_S64x40_S100000x40_1_0_0_1_n_n none (val_main_v44 (F := F) x0 x1 x2 x3) x4)
        (val_main_v3 (F := F) x1) (val_main_v6 (F := F) x1) (val_main_v60 (F := F) x1) x5 := rfl

end Cert.RefValue

namespace Cert.RefValue

open Cert.ReferenceIdeal Cert.ReferenceIdeal.Gen Cert.ReferenceIdeal.Read
open Cert.Layers Cert.MatmulEntry Cert.Network Idealize.ShloMosaic

/-- The reference's result is the network function of its arguments. -/
theorem value_eq (x0 : (⟨S100000x128, .f32⟩ : BufTy).Contents (Elt Ideal)) (x1 : (⟨S2x1600000, .i32⟩ : BufTy).Contents (Elt Ideal))
    (x2 : (⟨S128x64, .f32⟩ : BufTy).Contents (Elt Ideal)) (x3 : (⟨S64, .f32⟩ : BufTy).Contents (Elt Ideal))
    (x4 : (⟨S64x40, .f32⟩ : BufTy).Contents (Elt Ideal)) (x5 : (⟨S40, .f32⟩ : BufTy).Contents (Elt Ideal)) :
    val_main_v76 (F := Ideal) x0 x1 x2 x3 x4 x5 = gcn x0 x1 x2 x3 x4 x5 := by
  rw [out_eq, hidden_eq, norm2_eq, norm1_eq, src_eq, dst_eq]
  unfold val_main_v12
  rw [hostDot1_eq, hostDot2_eq]
  rfl

end Cert.RefValue

end
-- ==== Proof.lean ====
/-
  Two graph-convolution layers over 100000 nodes and 1700000 edges (self-loops included): the kernel program against
  its reference, at the exact extended reals.

  Both programs make the same host operations on the edge list (sources, destinations, degree, edge weights) and the same
  gather / scale / scatter-add / bias aggregation after each layer's matrix product.  They differ in the products alone:
  the kernel program multiplies 5000-row blocks on the matrix unit, after narrowing to bf16, inside two pipelined
  regions; the reference multiplies the whole arrays on the host.  At the exact extended reals narrowing is the identity
  and either product is, entry by entry, the sum over k of left (p, k) times right (k, c), so both programs return the
  one network function `Network.gcn` of their arguments.  No law beyond that is used, and the inputs' finiteness is
  never needed.

  The kernel program's frames are the generated ones; the reference's frame is its generated run with the result
  dropped; the idealization rewrote nothing, so nothing is to be preserved.
-/
import proofs.«112412_j68899865362997_1_alg».proof.Defs
import proofs.«112412_j68899865362997_1_alg».proof.Proof.Gen.Kernel
import proofs.«112412_j68899865362997_1_alg».proof.Proof.Gen.Kernel.Frame
import proofs.«112412_j68899865362997_1_alg».proof.Proof.Gen.KernelIdeal
import proofs.«112412_j68899865362997_1_alg».proof.Proof.Gen.KernelIdeal.Frame
import proofs.«112412_j68899865362997_1_alg».proof.Proof.Gen.ReferenceIdeal
import proofs.«112412_j68899865362997_1_alg».proof.Proof.Gen.ReferenceIdeal.Run
import proofs.«112412_j68899865362997_1_alg».proof.Proof.Gen.ReferenceIdeal.Read
import proofs.«112412_j68899865362997_1_alg».proof.Proof.Gen.Pre_finite_inputs
import proofs.«112412_j68899865362997_1_alg».proof.Proof.KernelValue
import proofs.«112412_j68899865362997_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments both programs end with the network function of those arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v76_eq, Cert.RefValue.value_eq,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
